-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : FVec F S16x4096 .f32) (main_arg4 : FVec F S11008x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S11264x16 : Shape := ⟨2, ![11264, 16]⟩
abbrev S11264x1 : Shape := ⟨2, ![11264, 1]⟩
abbrev S8192x11264 : Shape := ⟨2, ![8192, 11264]⟩
abbrev S1024x1024 : Shape := ⟨2, ![1024, 1024]⟩
abbrev S512x1024 : Shape := ⟨2, ![512, 1024]⟩
abbrev S512x1 : Shape := ⟨2, ![512, 1]⟩
abbrev S16x1024 : Shape := ⟨2, ![16, 1024]⟩
abbrev S512x16 : Shape := ⟨2, ![512, 16]⟩
abbrev S1024x512 : Shape := ⟨2, ![1024, 512]⟩
abbrev S1024x16 : Shape := ⟨2, ![1024, 16]⟩
abbrev S16x512 : Shape := ⟨2, ![16, 512]⟩
abbrev S8192x11008 : Shape := ⟨2, ![8192, 11008]⟩
abbrev S4x2048x11008 : Shape := ⟨3, ![4, 2048, 11008]⟩

abbrev nBuf : Space → Nat
  | .hbm => 19
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S8192x4096, .f32⟩
  | .hbm, ⟨6, _⟩ => ⟨S_, .i32⟩
  | .hbm, ⟨7, _⟩ => ⟨S_, .i32⟩
  | .hbm, ⟨8, _⟩ => ⟨S11264x4096, .i32⟩
  | .hbm, ⟨9, _⟩ => ⟨S_, .i32⟩
  | .hbm, ⟨10, _⟩ => ⟨S_, .f32⟩
  | .hbm, ⟨11, _⟩ => ⟨S11264, .f32⟩
  | .hbm, ⟨12, _⟩ => ⟨S_, .i32⟩
  | .hbm, ⟨13, _⟩ => ⟨S_, .f32⟩
  | .hbm, ⟨14, _⟩ => ⟨S11264x16, .f32⟩
  | .hbm, ⟨15, _⟩ => ⟨S11264x1, .f32⟩
  | .hbm, ⟨16, _⟩ => ⟨S8192x11264, .f32⟩
  | .hbm, ⟨17, _⟩ => ⟨S8192x11008, .f32⟩
  | .hbm, ⟨18, _⟩ => ⟨S4x2048x11008, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S16x1024, .f32⟩
  | .local _ .vmem, ⟨7, _⟩ => ⟨S16x1024, .f32⟩
  | .local _ .vmem, ⟨8, _⟩ => ⟨S512x16, .f32⟩
  | .local _ .vmem, ⟨9, _⟩ => ⟨S512x16, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 22, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  pads_S11008x16_S11264x16_02560_000 : S11008x16.Pads (![0, 0] : Fin 2 → Nat) ![256, 0] ![0, 0] S11264x16
  shapeCasts_S11264_S11264x1 : S11264.ShapeCasts S11264x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  transposes_S512x1024_p1_0_S1024x512 : S512x1024.Transposes [1, 0] S1024x512
  inb_S16x1024_S16x1024_0_0 : ∀ a, (![0, 0] : Fin 2 → Nat) a + S16x1024.size a ≤ S16x1024.size a
  h_S16x1024 : 0 < S16x1024.numel
  transposes_S16x1024_p1_0_S1024x16 : S16x1024.Transposes [1, 0] S1024x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  transposes_S512x16_p1_0_S16x512 : S512x16.Transposes [1, 0] S16x512
  slices_S8192x11264_S8192x11008_0_0 : S8192x11264.Slices ![0, 0] S8192x11008
  shapeCasts_S8192x11008_S4x2048x11008 : S8192x11008.ShapeCasts S4x2048x11008
  dot_S1024x1024_S1024x512_S1024x512_1_0_0_1_n_n_wf : DotDims.WF S1024x1024 S1024x512 S1024x512 [1] [0] [0] [1] [] []
  dot_S1024x1024_S1024x16_S1024x16_1_0_0_1_n_n_wf : DotDims.WF S1024x1024 S1024x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S11264x4096.size a
  hwx0_1 : ∀ i : grid0.Coords, EltTy.bits .i32 = 32 ∨ (Rect.block (s := S11264x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S11264x1.size a
  hwx0_2 : ∀ i : grid0.Coords, EltTy.bits .f32 = 32 ∨ (Rect.block (s := S11264x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S11264x16.size a
  hwx0_4 : ∀ i : grid0.Coords, EltTy.bits .f32 = 32 ∨ (Rect.block (s := S11264x16) S512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x11264.size a
  hwx0_5 : ∀ i : grid0.Coords, EltTy.bits .f32 = 32 ∨ (Rect.block (s := S8192x11264) S1024x512.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩
abbrev S11008x1 : Shape := ⟨2, ![11008, 1]⟩
abbrev S4x2048x11008 : Shape := ⟨3, ![4, 2048, 11008]⟩
abbrev S4x2048x16 : Shape := ⟨3, ![4, 2048, 16]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x4096, .f32⟩
  | .hbm, ⟨6, _⟩ => ⟨S_, .f32⟩
  | .hbm, ⟨7, _⟩ => ⟨S11008x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S4x2048x11008, .f32⟩
  | .hbm, ⟨13, _⟩ => ⟨S4x2048x16, .f32⟩
  | .hbm, ⟨14, _⟩ => ⟨S4x2048x11008, .f32⟩
  | .hbm, ⟨15, _⟩ => ⟨S_, .f32⟩
  | .hbm, ⟨16, _⟩ => ⟨S4x2048x11008, .f32⟩
  | .hbm, ⟨17, _⟩ => ⟨S4x2048x11008, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x4096_S16x4096_S4x2048x16_2_1_01_0_n_n_wf : DotDims.WF S4x2048x4096 S16x4096 S4x2048x16 [2] [1] [0, 1] [0] [] []
  dot_S4x2048x16_S11008x16_S4x2048x11008_2_1_01_0_n_n_wf : DotDims.WF S4x2048x16 S11008x16 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S11008x16_S4x2048x11008_2_1_01_0_n_n : DotDims S4x2048x16 S11008x16 S4x2048x11008 where
  lhsContracting := [2]
  rhsContracting := [1]
  lhsNonContracting := [0, 1]
  rhsNonContracting := [0]
  lhsBatch := []
  rhsBatch := []
  wf := dot_S4x2048x16_S11008x16_S4x2048x11008_2_1_01_0_n_n_wf

class Facts : Prop extends Facts₀ where

variable [Facts]
-- ==== Proof.Spec.lean ====
import Idealize.ShloMosaic.PureOps.Ideal
import Idealize.ShloMosaic.Lib.ValueIdx

noncomputable section

/-!
# A quantized linear layer with a low-rank correction, over the extended reals

The layer maps `x` (4 × 2048 rows of 4096 features) to 11008 output channels. The base weight is stored as integer
codes with one scale per output channel and is dequantized as `(code - 127) · scale`; the correction is the rank-16
product `(x Aᵀ) Bᵀ` scaled by 2:

  out (b, s, o) = ∑ₖ x (b, s, k) · ((code (o, k) - 127) · scale o) + 2 · ∑ⱼ (∑ₖ x (b, s, k) · A (j, k)) · B (o, j).
-/

namespace QuantLora

open Idealize.ShloMosaic Idealize.ShloMosaic.ValueIdx

/-- The dequantized weight: `(code - 127) · scale`, the code read as a signed integer. -/
def deq (code : BitVec 32) (scale : EReal) : EReal :=
  (FloatOps.sitofp (F := Ideal) .f32 code - Ideal.ofBits .f32 0x42FE0000#32) * scale

/-- The layer's output at batch `b`, position `s`, output channel `o`. -/
def outAt (x : (⟨3, ![4, 2048, 4096]⟩ : Shape).Idx → EReal) (code : (⟨2, ![11008, 4096]⟩ : Shape).Idx → BitVec 32)
    (scale : (⟨1, ![11008]⟩ : Shape).Idx → EReal) (a : (⟨2, ![16, 4096]⟩ : Shape).Idx → EReal)
    (bm : (⟨2, ![11008, 16]⟩ : Shape).Idx → EReal) (b : Fin 4) (s : Fin 2048) (o : Fin 11008) : EReal :=
  (∑ k : Fin 4096, x (ix3 b s k) * deq (code (ix2 o k)) (scale (ix1 o)))
    + Ideal.ofBits .f32 0x40000000#32 * ∑ j : Fin 16, (∑ k : Fin 4096, x (ix3 b s k) * a (ix2 j k)) * bm (ix2 o j)

/-- The layer's whole output. -/
def out (x : (⟨3, ![4, 2048, 4096]⟩ : Shape).Idx → EReal) (code : (⟨2, ![11008, 4096]⟩ : Shape).Idx → BitVec 32)
    (scale : (⟨1, ![11008]⟩ : Shape).Idx → EReal) (a : (⟨2, ![16, 4096]⟩ : Shape).Idx → EReal)
    (bm : (⟨2, ![11008, 16]⟩ : Shape).Idx → EReal) : (⟨3, ![4, 2048, 11008]⟩ : Shape).Idx → EReal :=
  fun i => outAt x code scale a bm (i 0) (i 1) (i 2)

end QuantLora

end
-- ==== Proof.Payloads.lean ====
import proofs.«111859_j4724464025622_1_alg».proof.Proof.Gen.KernelIdeal.Skeleton
import Idealize.ShloMosaic.Lib.ValueIdx
import Idealize.ShloMosaic.Lib.Pipeline.Value
import Idealize.ShloMosaic.PureOps.Ideal.Laws
import proofs.«111859_j4724464025622_1_alg».proof.Proof.Spec

noncomputable section

/-!
# The body's arithmetic at an index, over the extended reals

One grid step works on a 1024 × 512 tile of the output. It dequantizes a 512 × 1024 tile of integer
codes — `(code - 127) · scale`, one scale per output channel —, multiplies the 1024 × 1024 tile of `x`
by its transpose and adds the product to the base accumulator; it multiplies the same tile of `x` by the
transpose of a 16 × 1024 tile of `A` and adds that to the low-rank accumulator; and at the last step of a
sweep it forms `base + 2 · (low-rank accumulator · Bᵀ)`. A change of float format is the identity on the
extended reals, so each of the three results, read at an entry, is an accumulator entry plus a plain sum of
products.
-/

namespace Cert.KernelIdeal.Tile

open Cert.KernelIdeal Cert.KernelIdeal.Gen Idealize.ShloMosaic Idealize.ShloMosaic.ValueIdx

/-- The dequantized weight of the layer: `(code - 127) · scale`. -/
abbrev deq (code : BitVec 32) (scale : EReal) : EReal := QuantLora.deq code scale

theorem dotBase_l0 (j : S1024x512.Idx) (q : dot_S1024x1024_S1024x512_S1024x512_1_0_0_1_n_n.contr.Idx) : (dot_S1024x1024_S1024x512_S1024x512_1_0_0_1_n_n.lhsIdx j q 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem dotBase_l1 (j : S1024x512.Idx) (q : dot_S1024x1024_S1024x512_S1024x512_1_0_0_1_n_n.contr.Idx) : (dot_S1024x1024_S1024x512_S1024x512_1_0_0_1_n_n.lhsIdx j q 1).val = (q ⟨0, by decide⟩).val :=
  dot_S1024x1024_S1024x512_S1024x512_1_0_0_1_n_n.lhsIdx_val_of_single rfl j q
theorem dotBase_r0 (j : S1024x512.Idx) (q : dot_S1024x1024_S1024x512_S1024x512_1_0_0_1_n_n.contr.Idx) : (dot_S1024x1024_S1024x512_S1024x512_1_0_0_1_n_n.rhsIdx j q 0).val = (q ⟨0, by decide⟩).val :=
  dot_S1024x1024_S1024x512_S1024x512_1_0_0_1_n_n.rhsIdx_val_of_single rfl j q
theorem dotBase_r1 (j : S1024x512.Idx) (q : dot_S1024x1024_S1024x512_S1024x512_1_0_0_1_n_n.contr.Idx) : (dot_S1024x1024_S1024x512_S1024x512_1_0_0_1_n_n.rhsIdx j q 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A 1024 × 1024 by 1024 × 512 product into a zero accumulator, at `(p, q)`: the sum over `k` of `l (p, k) · r (k, q)`. -/
theorem dotBase_apply {φ₁ φ₂ : FTy} (l : FVec Ideal S1024x1024 φ₁) (r : FVec Ideal S1024x512 φ₂) (p : Fin 1024) (q : Fin 512) :
    FloatOps.matmul dot_S1024x1024_S1024x512_S1024x512_1_0_0_1_n_n none l r (constant S1024x512 .f32 0x00000000#32) (ix2 p q)
      = ∑ k : Fin 1024, l (ix2 p k) * r (ix2 k q) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact dotBase_l0 _ _
    | ⟨1, _⟩ => exact (dotBase_l1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (dotBase_r0 _ _).trans hk
    | ⟨1, _⟩ => exact dotBase_r1 _ _)
  rw [el, er]

theorem dotMid_l0 (j : S1024x16.Idx) (q : dot_S1024x1024_S1024x16_S1024x16_1_0_0_1_n_n.contr.Idx) : (dot_S1024x1024_S1024x16_S1024x16_1_0_0_1_n_n.lhsIdx j q 0).val = (j 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem dotMid_l1 (j : S1024x16.Idx) (q : dot_S1024x1024_S1024x16_S1024x16_1_0_0_1_n_n.contr.Idx) : (dot_S1024x1024_S1024x16_S1024x16_1_0_0_1_n_n.lhsIdx j q 1).val = (q ⟨0, by decide⟩).val :=
  dot_S1024x1024_S1024x16_S1024x16_1_0_0_1_n_n.lhsIdx_val_of_single rfl j q
theorem dotMid_r0 (j : S1024x16.Idx) (q : dot_S1024x1024_S1024x16_S1024x16_1_0_0_1_n_n.contr.Idx) : (dot_S1024x1024_S1024x16_S1024x16_1_0_0_1_n_n.rhsIdx j q 0).val = (q ⟨0, by decide⟩).val :=
  dot_S1024x1024_S1024x16_S1024x16_1_0_0_1_n_n.rhsIdx_val_of_single rfl j q
theorem dotMid_r1 (j : S1024x16.Idx) (q : dot_S1024x1024_S1024x16_S1024x16_1_0_0_1_n_n.contr.Idx) : (dot_S1024x1024_S1024x16_S1024x16_1_0_0_1_n_n.rhsIdx j q 1).val = (j 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- A 1024 × 1024 by 1024 × 16 product into a zero accumulator, at `(p, q)`: the sum over `k` of `l (p, k) · r (k, q)`. -/
theorem dotMid_apply {φ₁ φ₂ : FTy} (l : FVec Ideal S1024x1024 φ₁) (r : FVec Ideal S1024x16 φ₂) (p : Fin 1024) (q : Fin 16) :
    FloatOps.matmul dot_S1024x1024_S1024x16_S1024x16_1_0_0_1_n_n none l r (constant S1024x16 .f32 0x00000000#32) (ix2 p q)
      = ∑ k : Fin 1024, l (ix2 p k) * r (ix2 k q) := by
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact dotMid_l0 _ _
    | ⟨1, _⟩ => exact (dotMid_l1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (dotMid_r0 _ _).trans hk
    | ⟨1, _⟩ => exact dotMid_r1 _ _)
  rw [el, er]

theorem dotOut_l0 (j : S1024x512.Idx) (q : dot_S1024x16_S16x512_S1024x512_1_0_0_1_n_n.contr.Idx) : (dot_S1024x16_S16x512_S1024x512_1_0_0_1_n_n.lhsIdx j q 0).val = (j 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem dotOut_l1 (j : S1024x512.Idx) (q : dot_S1024x16_S16x512_S1024x512_1_0_0_1_n_n.contr.Idx) : (dot_S1024x16_S16x512_S1024x512_1_0_0_1_n_n.lhsIdx j q 1).val = (q ⟨0, by decide⟩).val :=
  dot_S1024x16_S16x512_S1024x512_1_0_0_1_n_n.lhsIdx_val_of_single rfl j q
theorem dotOut_r0 (j : S1024x512.Idx) (q : dot_S1024x16_S16x512_S1024x512_1_0_0_1_n_n.contr.Idx) : (dot_S1024x16_S16x512_S1024x512_1_0_0_1_n_n.rhsIdx j q 0).val = (q ⟨0, by decide⟩).val :=
  dot_S1024x16_S16x512_S1024x512_1_0_0_1_n_n.rhsIdx_val_of_single rfl j q
theorem dotOut_r1 (j : S1024x512.Idx) (q : dot_S1024x16_S16x512_S1024x512_1_0_0_1_n_n.contr.Idx) : (dot_S1024x16_S16x512_S1024x512_1_0_0_1_n_n.rhsIdx j q 1).val = (j 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-- A 1024 × 16 by 16 × 512 product into a zero accumulator, at `(p, q)`: the sum over `k` of `l (p, k) · r (k, q)`. -/
theorem dotOut_apply {φ₁ φ₂ : FTy} (l : FVec Ideal S1024x16 φ₁) (r : FVec Ideal S16x512 φ₂) (p : Fin 1024) (q : Fin 512) :
    FloatOps.matmul dot_S1024x16_S16x512_S1024x512_1_0_0_1_n_n none l r (constant S1024x512 .f32 0x00000000#32) (ix2 p q)
      = ∑ k : Fin 16, l (ix2 p k) * r (ix2 k q) := by
  rw [Ideal.matmul_constant_zero_apply, ← Equiv.sum_comp (contrEquiv1 dot_S1024x16_S16x512_S1024x512_1_0_0_1_n_n 16 rfl rfl).symm]
  refine Finset.sum_congr rfl fun k _ => ?_
  have hk := contrEquiv1_symm_val dot_S1024x16_S16x512_S1024x512_1_0_0_1_n_n 16 rfl rfl k
  have el : dot_S1024x16_S16x512_S1024x512_1_0_0_1_n_n.lhsIdx (ix2 p q) ((contrEquiv1 dot_S1024x16_S16x512_S1024x512_1_0_0_1_n_n 16 rfl rfl).symm k) = ix2 p k := funext fun a => Fin.ext (by
    match a with
    | ⟨0, _⟩ => exact dotOut_l0 _ _
    | ⟨1, _⟩ => exact (dotOut_l1 _ _).trans hk)
  have er : dot_S1024x16_S16x512_S1024x512_1_0_0_1_n_n.rhsIdx (ix2 p q) ((contrEquiv1 dot_S1024x16_S16x512_S1024x512_1_0_0_1_n_n 16 rfl rfl).symm k) = ix2 k q := funext fun a => Fin.ext (by
    match a with
    | ⟨0, _⟩ => exact (dotOut_r0 _ _).trans hk
    | ⟨1, _⟩ => exact dotOut_r1 _ _)
  rw [el, er]

/-- A transposed matrix at `(a, b)` is the matrix at `(b, a)`. -/
theorem transpose2_apply {m n : Nat} {α : Type} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply _ _ _ (ix2 a b) (ix2 b a) (fun d => match d with | ⟨0, _⟩ => rfl | ⟨1, _⟩ => rfl)

/-- A column broadcast along the rows: `[a, 1] → [a, b]` at `(p, c)` is the column at `(p, 0)`. -/
theorem broadcastCol_apply {a b : Nat} {α : Type} (v : (⟨2, ![a, 1]⟩ : Shape).Idx → α)
    (h : (⟨2, ![a, 1]⟩ : Shape).Broadcasts ⟨2, ![a, b]⟩) (ha : a ≠ 1) (p : Fin a) (c : Fin b) :
    broadcastTo ⟨2, ![a, b]⟩ v h (ix2 p c) = v (ix2 p (0 : Fin 1)) :=
  broadcastTo_apply _ _ (ix2 p c) (ix2 p (0 : Fin 1)) (fun d => match d with
    | ⟨0, _⟩ => by show p.val = if a = 1 then 0 else p.val; rw [if_neg ha]
    | ⟨1, _⟩ => by show 0 = if (1 : Nat) = 1 then 0 else c.val; rw [if_pos rfl])

/-- The base accumulator after a step, at `(p, q)`: its entry before, plus the sum over the tile's
    1024 columns of `x (p, k)` times the dequantized weight `(q, k)`. -/
theorem base_step (x : Vec Ideal S1024x1024 .f32) (code : Vec Ideal S512x1024 .i32) (scale : Vec Ideal S512x1 .f32)
    (acc : Vec Ideal S1024x512 .f32) (p : Fin 1024) (q : Fin 512) :
    k0_pay5 (F := Ideal) x code scale acc (ix2 p q)
      = acc (ix2 p q) + ∑ k : Fin 1024, x (ix2 p k) * deq (code (ix2 q k)) (scale (ix2 q (0 : Fin 1))) := by
  unfold k0_pay5 k0_pay4
  simp only [shapeCast_self, matmul]
  rw [addf_apply, dotBase_apply]
  refine congrArg (acc (ix2 p q) + ·) (Finset.sum_congr rfl fun k _ => ?_)
  rw [transpose2_apply]
  show x (ix2 p k) * ((FloatOps.sitofp (F := Ideal) .f32 (code (ix2 q k)) - Ideal.ofBits .f32 0x42FE0000#32)
      * broadcastTo S512x1024 scale broadcasts_S512x1_S512x1024 (ix2 q k)) = _
  rw [broadcastCol_apply scale broadcasts_S512x1_S512x1024 (by decide)]
  rfl

/-- The low-rank accumulator after a step, at `(p, r)`: its entry before, plus the sum over the tile's
    1024 columns of `x (p, k) · A (r, k)`. -/
theorem mid_step (x : Vec Ideal S1024x1024 .f32) (a : Vec Ideal S16x1024 .f32) (acc : Vec Ideal S1024x16 .f32)
    (p : Fin 1024) (r : Fin 16) :
    k0_pay6 (F := Ideal) x a acc (ix2 p r) = acc (ix2 p r) + ∑ k : Fin 1024, x (ix2 p k) * a (ix2 r k) := by
  unfold k0_pay6 k0_pay4
  simp only [shapeCast_self, matmul]
  rw [addf_apply, dotMid_apply]
  refine congrArg (acc (ix2 p r) + ·) (Finset.sum_congr rfl fun k _ => ?_)
  rw [transpose2_apply]
  rfl

/-- The output tile, at `(p, q)`: the base accumulator's entry plus twice the sum over the 16 ranks of the
    low-rank accumulator `(p, r)` times `B (q, r)`. -/
theorem out_tile (b : Vec Ideal S512x16 .f32) (mid : Vec Ideal S1024x16 .f32) (base : Vec Ideal S1024x512 .f32)
    (p : Fin 1024) (q : Fin 512) :
    k0_pay1 (F := Ideal) b mid base (ix2 p q)
      = base (ix2 p q) + Ideal.ofBits .f32 0x40000000#32 * ∑ r : Fin 16, mid (ix2 p r) * b (ix2 q r) := by
  unfold k0_pay1
  simp only [shapeCast_self, matmul]
  rw [addf_apply, mulf_apply, dotOut_apply]
  refine congrArg (fun z => base (ix2 p q) + Ideal.ofBits .f32 0x40000000#32 * z) (Finset.sum_congr rfl fun r _ => ?_)
  rw [transpose2_apply]
  rfl

/-- The reset value of the base accumulator is zero everywhere. -/
theorem base_reset (j : S1024x512.Idx) : k0_pay2 (F := Ideal) j = 0 := by
  unfold k0_pay2
  simp only [shapeCast_self]
  exact Ideal.ofBits_zero_f32

/-- The reset value of the low-rank accumulator is zero everywhere. -/
theorem mid_reset (j : S1024x16.Idx) : k0_pay3 (F := Ideal) j = 0 := by
  unfold k0_pay3
  simp only [shapeCast_self]
  exact Ideal.ofBits_zero_f32

end Cert.KernelIdeal.Tile

end
-- ==== Proof.Pieces.lean ====
import proofs.«111859_j4724464025622_1_alg».proof.Proof.Gen.KernelIdeal.Frame
import Idealize.ShloMosaic.Lib.Pipeline.Value
import Idealize.ShloMosaic.Lib.Tactic

noncomputable section

/-!
# What one grid step leaves in the two accumulators and in the output tile

The steps of a sweep over the contraction axis come in three kinds. The first step of a sweep resets both
accumulators to zero and then adds its products; a middle step adds its products to what the step before left;
the last step does the same and then writes the output tile from the two accumulators it has just updated.
Each lemma reads the stores one kind of step makes back as the arithmetic of its loads (at any float
instance): the base accumulator's update, the low-rank accumulator's update, and the output tile.
-/

namespace Cert.KernelIdeal.Step

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step of a sweep, base accumulator: the update applied to the reset value. -/
theorem first_base (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .i32) (x2 : Vec F S512x1 .f32) (x3 : Vec F S16x1024 .f32) (x4 : Vec F S512x16 .f32) :
    sout0_A_0 c i arg3 harg3 arg4 harg4 arg5 harg5 arg6 harg6 arg7 harg7 arg8 harg8 arg9 harg9 arg10 harg10 hc0 hc1 x0 x1 x2 x3 x4 = k0_pay5 x0 x1 x2 (k0_pay2 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- First step of a sweep, low-rank accumulator: the update applied to the reset value. -/
theorem first_mid (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S512x1024 .i32) (x2 : Vec F S512x1 .f32) (x3 : Vec F S16x1024 .f32) (x4 : Vec F S512x16 .f32) :
    sout0_A_1 c i arg3 harg3 arg4 harg4 arg5 harg5 arg6 harg6 arg7 harg7 arg8 harg8 arg9 harg9 arg10 harg10 hc0 hc1 x0 x1 x2 x3 x4 = k0_pay6 x0 x3 (k0_pay3 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- Middle step, base accumulator: the update applied to what the step before left. -/
theorem middle_base (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .i32) (x2 : Vec F S512x1 .f32) (x3 : Vec F S16x1024 .f32) (x4 : Vec F S512x16 .f32) (xs0 : Vec F S1024x512 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x512) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- Middle step, low-rank accumulator: the update applied to what the step before left. -/
theorem middle_mid (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S512x1024 .i32) (x2 : Vec F S512x1 .f32) (x3 : Vec F S16x1024 .f32) (x4 : Vec F S512x16 .f32) (xs0 : Vec F S1024x512 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay6 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- Last step, base accumulator: the update applied to what the step before left. -/
theorem last_base (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .i32) (x2 : Vec F S512x1 .f32) (x3 : Vec F S16x1024 .f32) (x4 : Vec F S512x16 .f32) (xs0 : Vec F S1024x512 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x512) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- Last step, low-rank accumulator: the update applied to what the step before left. -/
theorem last_mid (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .i32) (x2 : Vec F S512x1 .f32) (x3 : Vec F S16x1024 .f32) (x4 : Vec F S512x16 .f32) (xs0 : Vec F S1024x512 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay6 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

/-- Last step, output tile: formed from the two accumulators as this step has just updated them. -/
theorem last_out (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S512x1024 .i32) (x2 : Vec F S512x1 .f32) (x3 : Vec F S16x1024 .f32) (x4 : Vec F S512x16 .f32) (xs0 : Vec F S1024x512 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay1 x4 (k0_pay6 x0 x3 xs1) (k0_pay5 x0 x1 x2 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x512) hz, View.readCov_unit_zero (S := S1024x16) _ hz, View.readCov_unit_zero (S := S1024x512) _ hz]
  simp only [View.readAt_eq_ld, harg3.read_unread, harg4.read_unread, harg5.read_unread, harg6.read_unread, harg7.read_unread, harg9.read_unread, harg10.read_unread, View.ld_unit_zero (S := S1024x1024) hz, View.ld_unit_zero (S := S512x1024) hz, View.ld_unit_zero (S := S512x1) hz, View.ld_unit_zero (S := S16x1024) hz, View.ld_unit_zero (S := S512x16) hz, View.ld_unit_zero (S := S1024x512) hz, View.ld_unit_zero (S := S1024x16) hz]

end Cert.KernelIdeal.Step

end
-- ==== Proof.Blocks.lean ====
import proofs.«111859_j4724464025622_1_alg».proof.Proof.Gen.KernelIdeal.Frame
import Idealize.ShloMosaic.Lib.ValueIdx
import Idealize.ShloMosaic.Lib.Pipeline.Value

noncomputable section

/-!
# The tiles the grid steps read, as entries of the arrays

The grid is 8 × 22 × 4: step `t` (counted in row-major order) works on row tile `t / 88`, column tile
`t / 4 % 22` and depth tile `t % 4`. A row tile has 1024 rows of the 8192, a column tile 512 of the 11264
(padded) output channels, a depth tile 1024 of the 4096 contraction positions. Each input tile read at an entry
is the array it was cut from at the entry's position moved by the tile's offset.
-/

namespace Cert.KernelIdeal.Tiles

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Row `p` of the row tile of step `n`, as a row of the 8192. -/
def rowAt (n : ℕ) (p : Fin 1024) : Fin 8192 := ⟨n / 88 % 8 * 1024 + p.val, by have := p.isLt; omega⟩
/-- Column `q` of the column tile of step `n`, as one of the 11264 padded output channels. -/
def colAt (n : ℕ) (q : Fin 512) : Fin 11264 := ⟨n / 4 % 22 * 512 + q.val, by have := q.isLt; omega⟩
/-- Position `k` of the depth tile of step `n`, as one of the 4096 contraction positions. -/
def depthAt (n : ℕ) (k : Fin 1024) : Fin 4096 := ⟨k.val + 1024 * (n % 4), by have := k.isLt; omega⟩

/-- Where each window's tile sits at step `t`, decided over the 704 steps. -/
theorem tile_index : ∀ t : Fin cfg0.N,
    win0_0.index t (0 : Fin 2) = t.val / 88 % 8 ∧ win0_0.index t (1 : Fin 2) = t.val % 4
    ∧ win0_1.index t (0 : Fin 2) = t.val / 4 % 22 ∧ win0_1.index t (1 : Fin 2) = t.val % 4
    ∧ win0_2.index t (0 : Fin 2) = t.val / 4 % 22 ∧ win0_2.index t (1 : Fin 2) = 0
    ∧ win0_3.index t (0 : Fin 2) = 0 ∧ win0_3.index t (1 : Fin 2) = t.val % 4
    ∧ win0_4.index t (0 : Fin 2) = t.val / 4 % 22 ∧ win0_4.index t (1 : Fin 2) = 0
    ∧ win0_5.index t (0 : Fin 2) = t.val / 88 % 8 ∧ win0_5.index t (1 : Fin 2) = t.val / 4 % 22 :=
  (by decide +kernel : ∀ t : Fin grid0.N, _)

/-- The tile of `x` (reshaped to 8192 × 4096) at step `t`. -/
theorem x_tile (c : Dev nD) (t : Fin cfg0.N) (p k : Fin 1024) :
    iblk m c 0 t (ix2 p k) = V m c main_v0 (ix2 (rowAt t.val p) (depthAt t.val k)) := by
  obtain ⟨e0, e1, -⟩ := tile_index t
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = t.val / 88 % 8 * 1024 + p.val; rw [e0]; omega
  | ⟨1, _⟩ => show win0_0.index t (1 : Fin 2) * 1024 + 1 * k.val = k.val + 1024 * (t.val % 4); rw [e1]; omega

/-- The tile of the padded integer codes at step `t`. -/
theorem code_tile (c : Dev nD) (t : Fin cfg0.N) (q : Fin 512) (k : Fin 1024) :
    iblk m c 1 t (ix2 q k) = V m c main_v1 (ix2 (colAt t.val q) (depthAt t.val k)) := by
  obtain ⟨-, -, e0, e1, -⟩ := tile_index t
  show V m c main_v1 (((cfg0.win 1).blk t).view.emb (ix2 q k)) = _
  refine congrArg (V m c main_v1) (funext fun a => Fin.ext ?_)
  match a with
  | ⟨0, _⟩ => show win0_1.index t (0 : Fin 2) * 512 + 1 * q.val = t.val / 4 % 22 * 512 + q.val; rw [e0]; omega
  | ⟨1, _⟩ => show win0_1.index t (1 : Fin 2) * 1024 + 1 * k.val = k.val + 1024 * (t.val % 4); rw [e1]; omega

/-- The tile of the padded scales (a column) at step `t`. -/
theorem scale_tile (c : Dev nD) (t : Fin cfg0.N) (q : Fin 512) :
    iblk m c 2 t (ix2 q (0 : Fin 1)) = V m c main_v4 (ix2 (colAt t.val q) (0 : Fin 1)) := by
  obtain ⟨-, -, -, -, e0, e1, -⟩ := tile_index t
  show V m c main_v4 (((cfg0.win 2).blk t).view.emb (ix2 q (0 : Fin 1))) = _
  refine congrArg (V m c main_v4) (funext fun a => Fin.ext ?_)
  match a with
  | ⟨0, _⟩ => show win0_2.index t (0 : Fin 2) * 512 + 1 * q.val = t.val / 4 % 22 * 512 + q.val; rw [e0]; omega
  | ⟨1, _⟩ => show win0_2.index t (1 : Fin 2) * 1 + 1 * 0 = 0; rw [e1]

/-- The tile of `A` at step `t`. -/
theorem a_tile (c : Dev nD) (t : Fin cfg0.N) (r : Fin 16) (k : Fin 1024) :
    iblk m c 3 t (ix2 r k) = V m c main_arg3 (ix2 r (depthAt t.val k)) := by
  obtain ⟨-, -, -, -, -, -, e0, e1, -⟩ := tile_index t
  show V m c main_arg3 (((cfg0.win 3).blk t).view.emb (ix2 r k)) = _
  refine congrArg (V m c main_arg3) (funext fun a => Fin.ext ?_)
  match a with
  | ⟨0, _⟩ => show win0_3.index t (0 : Fin 2) * 16 + 1 * r.val = r.val; rw [e0]; omega
  | ⟨1, _⟩ => show win0_3.index t (1 : Fin 2) * 1024 + 1 * k.val = k.val + 1024 * (t.val % 4); rw [e1]; omega

/-- The tile of the padded `B` at step `t`. -/
theorem b_tile (c : Dev nD) (t : Fin cfg0.N) (q : Fin 512) (r : Fin 16) :
    iblk m c 4 t (ix2 q r) = V m c main_v3 (ix2 (colAt t.val q) r) := by
  obtain ⟨-, -, -, -, -, -, -, -, e0, e1, -⟩ := tile_index t
  show V m c main_v3 (((cfg0.win 4).blk t).view.emb (ix2 q r)) = _
  refine congrArg (V m c main_v3) (funext fun a => Fin.ext ?_)
  match a with
  | ⟨0, _⟩ => show win0_4.index t (0 : Fin 2) * 512 + 1 * q.val = t.val / 4 % 22 * 512 + q.val; rw [e0]; omega
  | ⟨1, _⟩ => show win0_4.index t (1 : Fin 2) * 16 + 1 * r.val = r.val; rw [e1]; omega

end Cert.KernelIdeal.Tiles

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.Accum.lean ====
import proofs.«111859_j4724464025622_1_alg».proof.Proof.Payloads
import proofs.«111859_j4724464025622_1_alg».proof.Proof.Pieces
import proofs.«111859_j4724464025622_1_alg».proof.Proof.Blocks
import proofs.«111859_j4724464025622_1_alg».proof.Proof.LibBlockSums

noncomputable section

/-!
# One grid step's effect on the two accumulators, in terms of the arrays

Fix a row tile and a column tile. The four steps of their sweep add, in order, the four depth tiles' products to
accumulators that start from zero: the first step of a sweep leaves `0 + (its depth tile's sum)`, a later step
what the step before left plus its own depth tile's sum. The terms summed are, for the base accumulator's entry
`(p, q)`, `x (row, k) · w (channel, k)` with `w` the dequantized weight, and for the low-rank accumulator's entry
`(p, j)`, `x (row, k) · A (j, k)`.
-/

namespace Cert.KernelIdeal.Sweep

open Cert.KernelIdeal Cert.KernelIdeal.Gen Idealize.ShloMosaic Idealize.ShloMosaic.TcCoe Idealize.SL.Sem
open Idealize.ShloMosaic.ValueIdx Cert.KernelIdeal.Tiles BlockSums

variable (m : (ℓ : Loc nD τ sig) → Buf (Elt Ideal) ℓ)

/-- The base product's term at contraction position `k`, for row `r` and output channel `n`. -/
def baseTerm (X : S8192x4096.Idx → EReal) (Wq : S11264x4096.Idx → BitVec 32) (Ws : S11264x1.Idx → EReal)
    (r : Fin 8192) (n : Fin 11264) : Fin 4096 → EReal :=
  fun k => X (ix2 r k) * Tile.deq (Wq (ix2 n k)) (Ws (ix2 n (0 : Fin 1)))

/-- The low-rank projection's term at contraction position `k`, for row `r` and rank `j`. -/
def midTerm (X : S8192x4096.Idx → EReal) (A : S16x4096.Idx → EReal) (r : Fin 8192) (j : Fin 16) : Fin 4096 → EReal :=
  fun k => X (ix2 r k) * A (ix2 j k)

/-- The base terms of entry `(p, q)` of the tile step `n` works on, over the arrays as the region finds them. -/
abbrev baseAt (c : Dev nD) (n : ℕ) (p : Fin 1024) (q : Fin 512) : Fin 4096 → EReal :=
  baseTerm (V m c main_v0) (V m c main_v1) (V m c main_v4) (rowAt n p) (colAt n q)

/-- The low-rank terms of entry `(p, j)` of the row tile step `n` works on. -/
abbrev midAt (c : Dev nD) (n : ℕ) (p : Fin 1024) (j : Fin 16) : Fin 4096 → EReal :=
  midTerm (V m c main_v0) (V m c main_arg3) (rowAt n p) j

/-- The five input tiles of step `t`, as matrices of literal sizes. -/
abbrev xT (c : Dev nD) (t : Fin cfg0.N) : Vec Ideal S1024x1024 .f32 := iblk m c 0 t
abbrev codeT (c : Dev nD) (t : Fin cfg0.N) : Vec Ideal S512x1024 .i32 := iblk m c 1 t
abbrev scaleT (c : Dev nD) (t : Fin cfg0.N) : Vec Ideal S512x1 .f32 := iblk m c 2 t
abbrev aT (c : Dev nD) (t : Fin cfg0.N) : Vec Ideal S16x1024 .f32 := iblk m c 3 t
abbrev bT (c : Dev nD) (t : Fin cfg0.N) : Vec Ideal S512x16 .f32 := iblk m c 4 t

theorem xT_apply (c : Dev nD) (t : Fin cfg0.N) (p k : Fin 1024) :
    xT m c t (ix2 p k) = V m c main_v0 (ix2 (rowAt t.val p) (depthAt t.val k)) := x_tile m c t p k
theorem codeT_apply (c : Dev nD) (t : Fin cfg0.N) (q : Fin 512) (k : Fin 1024) :
    codeT m c t (ix2 q k) = V m c main_v1 (ix2 (colAt t.val q) (depthAt t.val k)) := code_tile m c t q k
theorem scaleT_apply (c : Dev nD) (t : Fin cfg0.N) (q : Fin 512) :
    scaleT m c t (ix2 q (0 : Fin 1)) = V m c main_v4 (ix2 (colAt t.val q) (0 : Fin 1)) := scale_tile m c t q
theorem aT_apply (c : Dev nD) (t : Fin cfg0.N) (j : Fin 16) (k : Fin 1024) :
    aT m c t (ix2 j k) = V m c main_arg3 (ix2 j (depthAt t.val k)) := a_tile m c t j k
theorem bT_apply (c : Dev nD) (t : Fin cfg0.N) (q : Fin 512) (j : Fin 16) :
    bT m c t (ix2 q j) = V m c main_v3 (ix2 (colAt t.val q) j) := b_tile m c t q j

/-- Depth tile `n % 4` of a family over the 4096 contraction positions, summed. -/
theorem blockSum_depth (f : Fin 4096 → EReal) (n : ℕ) :
    blockSum 1024 f (n % 4) = ∑ k : Fin 1024, f (depthAt n k) :=
  blockSum_eq 1024 f (n % 4) (by omega)

/-- What step `t` adds to the base accumulator at `(p, q)` is depth tile `t % 4` of the base terms. -/
theorem base_added (c : Dev nD) (t : Fin cfg0.N) (p : Fin 1024) (q : Fin 512) :
    ∑ k : Fin 1024, xT m c t (ix2 p k) * Tile.deq (codeT m c t (ix2 q k)) (scaleT m c t (ix2 q (0 : Fin 1)))
      = blockSum 1024 (baseAt m c t.val p q) (t.val % 4) := by
  rw [blockSum_depth]
  refine Finset.sum_congr rfl fun k _ => ?_
  rw [xT_apply, codeT_apply, scaleT_apply]
  rfl

/-- What step `t` adds to the low-rank accumulator at `(p, j)` is depth tile `t % 4` of the low-rank terms. -/
theorem mid_added (c : Dev nD) (t : Fin cfg0.N) (p : Fin 1024) (j : Fin 16) :
    ∑ k : Fin 1024, xT m c t (ix2 p k) * aT m c t (ix2 j k)
      = blockSum 1024 (midAt m c t.val p j) (t.val % 4) := by
  rw [blockSum_depth]
  refine Finset.sum_congr rfl fun k _ => ?_
  rw [xT_apply, aT_apply]
  rfl

/-- The first step of a sweep leaves in each accumulator zero plus its depth tile's sum. -/
theorem first_step (c : Dev nD) (t : Fin cfg0.N) (h0 : t.val % 4 = 0) :
    (∀ (p : Fin 1024) (q : Fin 512),
      (outsAt0 m c t.val t.isLt).2.1 (ix2 p q) = 0 + blockSum 1024 (baseAt m c t.val p q) (t.val % 4))
    ∧ (∀ (p : Fin 1024) (j : Fin 16),
      (outsAt0 m c t.val t.isLt).2.2 (ix2 p j) = 0 + blockSum 1024 (midAt m c t.val p j) (t.val % 4)) := by
  have h1 : ¬t.val % 4 = 3 := by omega
  rw [outsAt0_A m c t h0 h1]
  dsimp only
  constructor
  · intro p q
    refine (congrFun (Step.first_base c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)) (ix2 p q)).trans ?_
    refine (Tile.base_step (xT m c t) (codeT m c t) (scaleT m c t) _ p q).trans ?_
    rw [Tile.base_reset, base_added m c t p q]
  · intro p j
    refine (congrFun (Step.first_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)) (ix2 p j)).trans ?_
    refine (Tile.mid_step (xT m c t) (aT m c t) _ p j).trans ?_
    rw [Tile.mid_reset, mid_added m c t p j]

/-- A later step of a sweep leaves in each accumulator what the step before left plus its depth tile's sum. -/
theorem later_step (c : Dev nD) (t : Fin cfg0.N) (h0 : ¬t.val % 4 = 0) :
    (∀ (p : Fin 1024) (q : Fin 512),
      (outsAt0 m c t.val t.isLt).2.1 (ix2 p q)
        = (outsAt0 m c (t.val - 1) (Nat.lt_of_le_of_lt (Nat.sub_le _ _) t.isLt)).2.1 (ix2 p q)
          + blockSum 1024 (baseAt m c t.val p q) (t.val % 4))
    ∧ (∀ (p : Fin 1024) (j : Fin 16),
      (outsAt0 m c t.val t.isLt).2.2 (ix2 p j)
        = (outsAt0 m c (t.val - 1) (Nat.lt_of_le_of_lt (Nat.sub_le _ _) t.isLt)).2.2 (ix2 p j)
          + blockSum 1024 (midAt m c t.val p j) (t.val % 4)) := by
  by_cases h1 : t.val % 4 = 3
  · rw [outsAt0_C m c t h0 h1]
    dsimp only
    constructor
    · intro p q
      refine (congrFun (Step.last_base c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p q)).trans ?_
      refine (Tile.base_step (xT m c t) (codeT m c t) (scaleT m c t) _ p q).trans ?_
      rw [base_added m c t p q]
    · intro p j
      refine (congrFun (Step.last_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p j)).trans ?_
      refine (Tile.mid_step (xT m c t) (aT m c t) _ p j).trans ?_
      rw [mid_added m c t p j]
  · rw [outsAt0_B m c t h0 h1]
    dsimp only
    constructor
    · intro p q
      refine (congrFun (Step.middle_base c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p q)).trans ?_
      refine (Tile.base_step (xT m c t) (codeT m c t) (scaleT m c t) _ p q).trans ?_
      rw [base_added m c t p q]
    · intro p j
      refine (congrFun (Step.middle_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p j)).trans ?_
      refine (Tile.mid_step (xT m c t) (aT m c t) _ p j).trans ?_
      rw [mid_added m c t p j]

/-- The last step of a sweep forms the output tile from the two accumulators as it has just left them. -/
theorem last_tile (c : Dev nD) (t : Fin cfg0.N) (h3 : t.val % 4 = 3) (p : Fin 1024) (q : Fin 512) :
    (outsAt0 m c t.val t.isLt).1 (ix2 p q)
      = (outsAt0 m c t.val t.isLt).2.1 (ix2 p q)
        + Ideal.ofBits .f32 0x40000000#32
          * ∑ j : Fin 16, (outsAt0 m c t.val t.isLt).2.2 (ix2 p j) * V m c main_v3 (ix2 (colAt t.val q) j) := by
  have h0 : ¬t.val % 4 = 0 := by omega
  rw [outsAt0_C m c t h0 h3]
  dsimp only
  refine (congrFun (Step.last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p q)).trans ?_
  refine (Tile.out_tile (bT m c t) _ _ p q).trans ?_
  rw [Step.last_base c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _, Step.last_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _]
  refine congrArg (fun z => _ + Ideal.ofBits .f32 0x40000000#32 * z) (Finset.sum_congr rfl fun j _ => ?_)
  rw [bT_apply]

end Cert.KernelIdeal.Sweep

end
-- ==== Proof.RunningSums.lean ====
import proofs.«111859_j4724464025622_1_alg».proof.Proof.Accum

noncomputable section

/-!
# The accumulators along a sweep, and the output tile its last step writes

By induction on the step: after step `n` the base accumulator's entry `(p, q)` is the running sum, over the depth
tiles `0, …, n % 4` and from zero, of the base terms of its row and channel, and the low-rank accumulator's entry
`(p, j)` the running sum of the low-rank terms — the row tile and the column tile do not move within a sweep. The
last step of a sweep (`n % 4 = 3`) therefore writes, at `(p, q)`, the running sum over all four depth tiles of the
base terms plus twice the sum over the 16 ranks of the low-rank running sums times `B (channel, rank)`.
-/

namespace Cert.KernelIdeal.Sweep

open Cert.KernelIdeal Cert.KernelIdeal.Gen Idealize.ShloMosaic Idealize.ShloMosaic.TcCoe Idealize.SL.Sem
open Idealize.ShloMosaic.ValueIdx Cert.KernelIdeal.Tiles BlockSums

variable (m : (ℓ : Loc nD τ sig) → Buf (Elt Ideal) ℓ)

/-- Within a sweep the row tile and the column tile do not move. -/
theorem rowAt_succ (n : ℕ) (h : ¬(n + 1) % 4 = 0) (p : Fin 1024) : rowAt (n + 1) p = rowAt n p :=
  Fin.ext (by show (n + 1) / 88 % 8 * 1024 + p.val = n / 88 % 8 * 1024 + p.val; omega)
theorem colAt_succ (n : ℕ) (h : ¬(n + 1) % 4 = 0) (q : Fin 512) : colAt (n + 1) q = colAt n q :=
  Fin.ext (by show (n + 1) / 4 % 22 * 512 + q.val = n / 4 % 22 * 512 + q.val; omega)

/-- The contents after a step depend on the step's number only. -/
theorem outsAt0_congr (c : Dev nD) (a b : ℕ) (ha : a < cfg0.N) (hb : b < cfg0.N) (e : a = b) :
    outsAt0 m c a ha = outsAt0 m c b hb := by
  subst e; rfl

/-- THE ACCUMULATORS AFTER STEP `n`: running sums over the depth tiles `0, …, n % 4`, from zero. -/
theorem acc_after (c : Dev nD) : ∀ (n : ℕ) (hn : n < cfg0.N),
    (∀ (p : Fin 1024) (q : Fin 512), (outsAt0 m c n hn).2.1 (ix2 p q) = runSum 1024 (baseAt m c n p q) (n % 4))
    ∧ (∀ (p : Fin 1024) (j : Fin 16), (outsAt0 m c n hn).2.2 (ix2 p j) = runSum 1024 (midAt m c n p j) (n % 4)) := by
  intro n
  induction n with
  | zero =>
    intro hn
    obtain ⟨fb, fm⟩ := first_step m c ⟨0, hn⟩ rfl
    exact ⟨fun p q => fb p q, fun p j => fm p j⟩
  | succ n ih =>
    intro hn
    by_cases h0 : (n + 1) % 4 = 0
    · obtain ⟨fb, fm⟩ := first_step m c ⟨n + 1, hn⟩ h0
      constructor
      · intro p q
        refine (fb p q).trans ?_
        show 0 + blockSum 1024 (baseAt m c (n + 1) p q) ((n + 1) % 4) = runSum 1024 (baseAt m c (n + 1) p q) ((n + 1) % 4)
        rw [h0, runSum_zero]
      · intro p j
        refine (fm p j).trans ?_
        show 0 + blockSum 1024 (midAt m c (n + 1) p j) ((n + 1) % 4) = runSum 1024 (midAt m c (n + 1) p j) ((n + 1) % 4)
        rw [h0, runSum_zero]
    · obtain ⟨lb, lm⟩ := later_step m c ⟨n + 1, hn⟩ h0
      obtain ⟨ihb, ihm⟩ := ih (Nat.lt_of_succ_lt hn)
      have hk : (n + 1) % 4 = n % 4 + 1 := by omega
      have hprev := outsAt0_congr m c (n + 1 - 1) n (Nat.lt_of_le_of_lt (Nat.sub_le _ _) hn) (Nat.lt_of_succ_lt hn) (Nat.add_sub_cancel n 1)
      constructor
      · intro p q
        refine (lb p q).trans ?_
        show (outsAt0 m c (n + 1 - 1) _).2.1 (ix2 p q) + blockSum 1024 (baseAt m c (n + 1) p q) ((n + 1) % 4)
          = runSum 1024 (baseAt m c (n + 1) p q) ((n + 1) % 4)
        rw [hprev, ihb p q, hk, runSum_succ]
        unfold baseAt
        rw [rowAt_succ n h0, colAt_succ n h0]
      · intro p j
        refine (lm p j).trans ?_
        show (outsAt0 m c (n + 1 - 1) _).2.2 (ix2 p j) + blockSum 1024 (midAt m c (n + 1) p j) ((n + 1) % 4)
          = runSum 1024 (midAt m c (n + 1) p j) ((n + 1) % 4)
        rw [hprev, ihm p j, hk, runSum_succ]
        unfold midAt
        rw [rowAt_succ n h0]

/-- THE OUTPUT TILE OF A SWEEP'S LAST STEP at `(p, q)`: the base sum over all four depth tiles plus twice the sum
    over the 16 ranks of the low-rank sums times `B (channel, rank)`. -/
theorem tile_out (c : Dev nD) (t : Fin cfg0.N) (h3 : t.val % 4 = 3) (p : Fin 1024) (q : Fin 512) :
    (outsAt0 m c t.val t.isLt).1 (ix2 p q)
      = runSum 1024 (baseAt m c t.val p q) 3
        + Ideal.ofBits .f32 0x40000000#32
          * ∑ j : Fin 16, runSum 1024 (midAt m c t.val p j) 3 * V m c main_v3 (ix2 (colAt t.val q) j) := by
  have hb : (outsAt0 m c t.val t.isLt).2.1 (ix2 p q) = runSum 1024 (baseAt m c t.val p q) 3 :=
    ((acc_after m c t.val t.isLt).1 p q).trans (congrArg (runSum 1024 (baseAt m c t.val p q)) h3)
  have hm : ∀ j : Fin 16, (outsAt0 m c t.val t.isLt).2.2 (ix2 p j) = runSum 1024 (midAt m c t.val p j) 3 :=
    fun j => ((acc_after m c t.val t.isLt).2 p j).trans (congrArg (runSum 1024 (midAt m c t.val p j)) h3)
  have hl := last_tile m c t h3 p q
  generalize outsAt0 m c t.val t.isLt = O at hb hm hl ⊢
  rw [hl, hb]
  simp only [hm]

end Cert.KernelIdeal.Sweep

end
-- ==== Proof.WholeArray.lean ====
import proofs.«111859_j4724464025622_1_alg».proof.Proof.RunningSums

noncomputable section

/-!
# The array the region leaves

The output tiles of the 8 × 22 sweeps tile the 8192 × 11264 result array: the tile of row tile `i` and column tile
`j` is written back once, by the last step of its sweep. So the array ends holding, at `(r, n)`, the running sum
over all four depth tiles of the base terms of row `r` and channel `n`, plus twice the sum over the 16 ranks of the
low-rank running sums of row `r` times the padded `B (n, rank)`.
-/

namespace Cert.KernelIdeal.Whole

open Cert.KernelIdeal Cert.KernelIdeal.Gen Idealize.ShloMosaic Idealize.ShloMosaic.TcCoe Idealize.SL.Sem
open Idealize.ShloMosaic.ValueIdx Cert.KernelIdeal.Tiles Cert.KernelIdeal.Sweep BlockSums
open Idealize.ShloMosaic.Pipeline (Dat)

variable (m : (ℓ : Loc nD τ sig) → Buf (Elt Ideal) ℓ) (ρ : Dev nD → PrngReg)

/-- The result at row `r` and (padded) output channel `n`, from the arrays the region reads. -/
def entry (X : S8192x4096.Idx → EReal) (Wq : S11264x4096.Idx → BitVec 32) (Ws : S11264x1.Idx → EReal)
    (A : S16x4096.Idx → EReal) (B : S11264x16.Idx → EReal) (r : Fin 8192) (n : Fin 11264) : EReal :=
  runSum 1024 (baseTerm X Wq Ws r n) 3
    + Ideal.ofBits .f32 0x40000000#32 * ∑ j : Fin 16, runSum 1024 (midTerm X A r j) 3 * B (ix2 n j)

/-- The whole 8192 × 11264 array of them, over the arrays as the region finds them. -/
def regionOut (c : Dev nD) : S8192x11264.Idx → EReal := fun i =>
  entry (V m c main_v0) (V m c main_v1) (V m c main_v4) (V m c main_arg3) (V m c main_v3) (i 0) (i 1)

/-- WHAT THE LAST STEP OF A SWEEP WRITES BACK is its tile of that array. -/
theorem flushed_eq (c : Dev nD) (t : Fin cfg0.N) (hf : (cfg0.win 5).flush t = true) :
    (dats m 0 c).flushed 5 t = ((cfg0.win 5).blk t).view.read (Elt Ideal) (regionOut m c) := by
  have h3 : t.val % 4 = 3 := (flush0_5 t).mp hf
  obtain ⟨-, -, -, -, -, -, -, -, -, -, e0, e1⟩ := tile_index t
  show (cfg0.win 5).cut (grid0.coords t) ((dats m 0 c).after 5 t) = _
  rw [after0_5]
  funext y
  obtain ⟨p, q, rfl⟩ : ∃ (p : Fin 1024) (q : Fin 512), y = ix2 p q := ⟨y 0, y 1, eq_ix2 y⟩
  show (outsAt0 m c t.val t.isLt).1 (ix2 p q) = regionOut m c (((cfg0.win 5).blk t).view.emb (ix2 p q))
  rw [tile_out m c t h3 p q]
  have hemb : ((cfg0.win 5).blk t).view.emb (ix2 p q) = ix2 (rowAt t.val p) (colAt t.val q) :=
    funext fun a => Fin.ext (by
      match a with
      | ⟨0, _⟩ => show win0_5.index t (0 : Fin 2) * 1024 + 1 * p.val = t.val / 88 % 8 * 1024 + p.val; rw [e0]; omega
      | ⟨1, _⟩ => show win0_5.index t (1 : Fin 2) * 512 + 1 * q.val = t.val / 4 % 22 * 512 + q.val; rw [e1]; omega)
  rw [hemb]
  rfl

/-- An index of the array is in step `t`'s tile iff each coordinate is in the tile's range on its axis. -/
theorem mem_tile (t : Fin cfg0.N) (i : S8192x11264.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5).slice (win0_5.rect t)).set ↔ _
  rw [View.set_slice_whole, Rect.mem_set_unit]
  exact Iff.rfl

/-- Every entry of the array is in the tile some sweep's last step writes back. -/
theorem covered (i : S8192x11264.Idx) :
    ∃ t : Fin cfg0.N, (cfg0.win 5).flush t = true ∧ i ∈ ((cfg0.win 5).blk t).view.set := by
  have hi0 : (i 0).val < 8192 := (i 0).isLt
  have hi1 : (i 1).val < 11264 := (i 1).isLt
  have hN : cfg0.N = 704 := N_0
  let t : Fin cfg0.N := ⟨((i 0).val / 1024 * 22 + (i 1).val / 512) * 4 + 3, by rw [hN]; omega⟩
  have htv : t.val = ((i 0).val / 1024 * 22 + (i 1).val / 512) * 4 + 3 := rfl
  obtain ⟨-, -, -, -, -, -, -, -, -, -, e0, e1⟩ := tile_index t
  refine ⟨t, (flush0_5 t).mpr (by rw [htv]; omega), ?_⟩
  rw [mem_tile]
  intro a
  match a with
  | ⟨0, _⟩ => show win0_5.index t (0 : Fin 2) * 1024 ≤ (i 0).val ∧ (i 0).val < win0_5.index t (0 : Fin 2) * 1024 + 1024; rw [e0, htv]; omega
  | ⟨1, _⟩ => show win0_5.index t (1 : Fin 2) * 512 ≤ (i 1).val ∧ (i 1).val < win0_5.index t (1 : Fin 2) * 512 + 512; rw [e1, htv]; omega

/-- THE ARRAY after the region. -/
theorem final (c : Dev nD) : (dats m 0 c).arrAt 5 cfg0.N = regionOut m c :=
  (dats m 0 c).arrAt_eq_of_cover 5 (regionOut m c) (flushed_eq m c) covered

end Cert.KernelIdeal.Whole

end
-- ==== Proof.KernelLayer.lean ====
import proofs.«111859_j4724464025622_1_alg».proof.Proof.WholeArray
import Idealize.ShloMosaic.Lib.StableHlo.Run
import Idealize.ShloMosaic.Lib.KernelVsHost
import Idealize.ShloMosaic.Lib.Tactic

noncomputable section

/-!
# The kernel program computes the layer

Around the region the program only re-lays data: before it, `x` is reshaped to 8192 rows, and the codes, the
scales and `B` get 256 zero rows so that the 11008 output channels fill 22 column tiles (the scales are then
turned into a column); after it, the 256 padding columns of the result are cut off and the rows are folded back to
4 × 2048. An entry of the result at an output channel below 11008 reads only unpadded rows of the padded arrays,
so the padding never shows, and the running sums over the four depth tiles are the sums over all 4096 features.
-/

namespace Cert.KernelIdeal.Layer

open Cert.KernelIdeal Cert.KernelIdeal.Gen Idealize.ShloMosaic Idealize.ShloMosaic.TcCoe Idealize.SL.Sem
open Idealize.ShloMosaic.StableHlo Idealize.ShloMosaic.ValueIdx Cert.KernelIdeal.Sweep Cert.KernelIdeal.Whole BlockSums

variable (m : (ℓ : Loc nD τ sig) → Buf (Elt Ideal) ℓ) (ρ : Dev nD → PrngReg)

/-! ## The arrays the region reads -/

theorem x_rows (c : Dev nD) : (V m c main_v0 : S8192x4096.Idx → EReal)
    = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem code_padded (c : Dev nD) : (V m c main_v1 : S11264x4096.Idx → BitVec 32)
    = pad S11264x4096 ![0, 0] ![256, 0] ![0, 0] (m ((c : Thread nD τ).loc main_arg1)) (constantI S_ 32 0#32)
        pads_S11008x4096_S11264x4096_02560_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem scale_padded (c : Dev nD) : (V m c main_v4 : S11264x1.Idx → EReal)
    = shapeCast S11264x1 (pad S11264 ![0] ![256] ![0] (m ((c : Thread nD τ).loc main_arg2))
        (sitofp (F := Ideal) .f32 (constantI S_ 32 0#32)) pads_S11008_S11264_02560 h_S_) shapeCasts_S11264_S11264x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem b_padded (c : Dev nD) : (V m c main_v3 : S11264x16.Idx → EReal)
    = pad S11264x16 ![0, 0] ![256, 0] ![0, 0] (m ((c : Thread nD τ).loc main_arg4))
        (sitofp (F := Ideal) .f32 (constantI S_ 32 0#32)) pads_S11008x16_S11264x16_02560_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Row `2048 b + s` of the reshaped `x` is row `(b, s)` of `x`. -/
theorem x_at (c : Dev nD) (b : Fin 4) (s : Fin 2048) (k : Fin 4096) (r : Fin 8192) (hr : r.val = b.val * 2048 + s.val) :
    V m c main_v0 (ix2 r k) = m ((c : Thread nD τ).loc main_arg0) (ix3 b s k) := by
  rw [x_rows]
  exact shapeCast_apply _ _ (ix2 r k) (ix3 b s k) (by
    rw [Shape.rowMajor_val_three, Shape.rowMajor_val_two]
    show (b.val * 2048 + s.val) * 4096 + k.val = r.val * 4096 + k.val
    rw [hr])

/-- An unpadded row of the padded codes is the codes' row. -/
theorem code_at (c : Dev nD) (o : Fin 11008) (k : Fin 4096) (n : Fin 11264) (hn : n.val = o.val) :
    V m c main_v1 (ix2 n k) = m ((c : Thread nD τ).loc main_arg1) (ix2 o k) := by
  rw [code_padded]
  exact pad_apply_of_inside _ _ _ _ _ _ _ (ix2 n k) (ix2 o k) (fun a => by
    match a with
    | ⟨0, _⟩ => show n.val = 0 + o.val * (0 + 1); omega
    | ⟨1, _⟩ => show k.val = 0 + k.val * (0 + 1); omega)

/-- An unpadded entry of the padded scale column is the channel's scale. -/
theorem scale_at (c : Dev nD) (o : Fin 11008) (n : Fin 11264) (hn : n.val = o.val) :
    V m c main_v4 (ix2 n (0 : Fin 1)) = m ((c : Thread nD τ).loc main_arg2) (ix1 o) := by
  rw [scale_padded]
  refine (shapeCast_apply _ _ (ix2 n (0 : Fin 1)) (ix1 n) (by
    rw [Shape.rowMajor_val_one, Shape.rowMajor_val_two]
    show n.val = n.val * 1 + 0
    omega)).trans ?_
  exact pad_apply_of_inside _ _ _ _ _ _ _ (ix1 n) (ix1 o) (fun a => by
    match a with
    | ⟨0, _⟩ => show n.val = 0 + o.val * (0 + 1); omega)

/-- An unpadded row of the padded `B` is `B`'s row. -/
theorem b_at (c : Dev nD) (o : Fin 11008) (j : Fin 16) (n : Fin 11264) (hn : n.val = o.val) :
    V m c main_v3 (ix2 n j) = m ((c : Thread nD τ).loc main_arg4) (ix2 o j) := by
  rw [b_padded]
  exact pad_apply_of_inside _ _ _ _ _ _ _ (ix2 n j) (ix2 o j) (fun a => by
    match a with
    | ⟨0, _⟩ => show n.val = 0 + o.val * (0 + 1); omega
    | ⟨1, _⟩ => show j.val = 0 + j.val * (0 + 1); omega)

/-! ## The result -/

/-- What the program returns: the region's array with the padding columns cut off and the rows folded back. -/
def result (c : Dev nD) : S4x2048x11008.Idx → EReal :=
  shapeCast S4x2048x11008 (extractStridedSlice S8192x11008 ![0, 0] (regionOut m c) slices_S8192x11264_S8192x11008_0_0)
    shapeCasts_S8192x11008_S4x2048x11008

/-- The host operations after the region leave it in the result buffer. -/
theorem tail_eq (c : Dev nD) : Pipeline.afterTail₀ cfgs (dats m) 0 (V0 m) [hostOps1] c main_v7 = result m c := by
  have e : Pipeline.withArrays (cfgs 0).spec c (V0 m c) (fun w => (dats m 0 c).arrAt w (cfgs 0).N) (Proc.devRef .tc main_v5)
      = regionOut m c :=
    (Pipeline.withArrays_arr spec0 launch0.win.arr_inj c _ _ 5).trans (final m c)
  unfold Pipeline.afterTail₀
  show StableHlo.after hostOps1 _ (Proc.devRef .tc main_v7) = _
  after_results
  rw [e]
  rfl

/-- The result at `(b, s, o)` is the region's array at row `2048 b + s`, channel `o`. -/
theorem result_at (c : Dev nD) (b : Fin 4) (s : Fin 2048) (o : Fin 11008) :
    result m c (ix3 b s o)
      = regionOut m c (ix2 (⟨b.val * 2048 + s.val, by have := b.isLt; have := s.isLt; omega⟩ : Fin 8192)
          (⟨o.val, by have := o.isLt; omega⟩ : Fin 11264)) := by
  unfold result
  refine (shapeCast_apply _ _ (ix3 b s o)
    (ix2 (⟨b.val * 2048 + s.val, by have := b.isLt; have := s.isLt; omega⟩ : Fin 8192) o) (by
      rw [Shape.rowMajor_val_two, Shape.rowMajor_val_three]
      show (b.val * 2048 + s.val) * 11008 + o.val = (b.val * 2048 + s.val) * 11008 + o.val
      rfl)).trans ?_
  exact extractStridedSlice_apply _ _ _ _ _ (fun a => by
    match a with
    | ⟨0, _⟩ => show b.val * 2048 + s.val = 0 + (b.val * 2048 + s.val); omega
    | ⟨1, _⟩ => show o.val = 0 + o.val; omega)

/-- THE KERNEL PROGRAM'S RESULT IS THE LAYER'S OUTPUT of its five arguments. -/
theorem result_eq (c : Dev nD) :
    result m c = QuantLora.out (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨b, s, o, rfl⟩ : ∃ (b : Fin 4) (s : Fin 2048) (o : Fin 11008), i = ix3 b s o := ⟨i 0, i 1, i 2, eq_ix3 i⟩
  rw [result_at]
  generalize hr : (⟨b.val * 2048 + s.val, by have := b.isLt; have := s.isLt; omega⟩ : Fin 8192) = r
  generalize hn : (⟨o.val, by have := o.isLt; omega⟩ : Fin 11264) = n
  have hrv : r.val = b.val * 2048 + s.val := by rw [← hr]
  have hnv : n.val = o.val := by rw [← hn]
  have hx : ∀ k, V m c main_v0 (ix2 r k) = m ((c : Thread nD τ).loc main_arg0) (ix3 b s k) := fun k => x_at m c b s k r hrv
  have hc : ∀ k, V m c main_v1 (ix2 n k) = m ((c : Thread nD τ).loc main_arg1) (ix2 o k) := fun k => code_at m c o k n hnv
  have hs : V m c main_v4 (ix2 n (0 : Fin 1)) = m ((c : Thread nD τ).loc main_arg2) (ix1 o) := scale_at m c o n hnv
  have hbm : ∀ j, V m c main_v3 (ix2 n j) = m ((c : Thread nD τ).loc main_arg4) (ix2 o j) := fun j => b_at m c o j n hnv
  have ha : V m c main_arg3 = m ((c : Thread nD τ).loc main_arg3) := V_main_arg3 m c
  show entry (V m c main_v0) (V m c main_v1) (V m c main_v4) (V m c main_arg3) (V m c main_v3) r n
    = QuantLora.outAt _ _ _ _ _ b s o
  unfold entry QuantLora.outAt
  rw [runSum_4x1024, ha]
  simp only [runSum_4x1024]
  unfold baseTerm midTerm
  simp only [hx, hc, hs, hbm]

/-! ## The run -/

/-- Every weakly fair execution of the kernel program terminates with the result buffer at the layer's output of the
    arguments, and the arguments unchanged. -/
theorem run : θ_run defs (onTc (τ := τ) (main (F := Ideal))) ⟨m, fun _ => 0, ρ⟩ fun r => ∀ c : Dev nD,
      r.2.mem ((c.tc : Thread nD τ).loc main_v7) = QuantLora.out (m ((c : Thread nD τ).loc main_arg0))
          (m ((c : Thread nD τ).loc main_arg1)) (m ((c : Thread nD τ).loc main_arg2)) (m ((c : Thread nD τ).loc main_arg3))
          (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v7 (Pipeline.mem_restRefs_of main_v7 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Layer

end
-- ==== Proof.RefSide.lean ====
import proofs.«111859_j4724464025622_1_alg».proof.Proof.Gen.ReferenceIdeal.Run
import proofs.«111859_j4724464025622_1_alg».proof.Proof.Gen.ReferenceIdeal.Read
import proofs.«111859_j4724464025622_1_alg».proof.Proof.Spec

noncomputable section

/-!
# The reference computes the layer

The reference dequantizes the whole weight, contracts `x` with it over the feature axis, contracts `x` with `A` and
the result with `B`, and adds twice the second product to the first: read at an index, entry by entry, that is the
layer's output.
-/

namespace Cert.ReferenceIdeal.RefValue

open Cert.ReferenceIdeal Cert.ReferenceIdeal.Read Idealize.ShloMosaic Idealize.ShloMosaic.ValueIdx

/-- The dequantized weight the reference forms, at output channel `o` and feature `k`. -/
theorem weight_apply (x1 : (⟨S11008x4096, .i32⟩ : BufTy).Contents (Elt Ideal)) (x2 : (⟨S11008, .f32⟩ : BufTy).Contents (Elt Ideal))
    (o : Fin 11008) (k : Fin 4096) :
    val_main_v5 (F := Ideal) x1 x2 (ix2 o k) = QuantLora.deq (x1 (ix2 o k)) (x2 (ix1 o)) := by
  rw [val_main_v5_apply, val_main_v2_apply, val_main_v0_apply, val_main_v1_apply, val_main_cst_apply, val_main_v4_apply,
    val_main_v3_apply]
  have e : idx_main_v3 (idx_main_v4 (ix2 o k)) = ix1 o := funext fun a => Fin.ext (by match a with | ⟨0, _⟩ => rfl)
  rw [e]
  rfl

/-- The reference's result is the layer's output. -/
theorem result_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S16x4096, .f32⟩ : BufTy).Contents (Elt Ideal))
    (x4 : (⟨S11008x16, .f32⟩ : BufTy).Contents (Elt Ideal)) :
    val_main_v11 (F := Ideal) x0 x1 x2 x3 x4 = QuantLora.out x0 x1 x2 x3 x4 := by
  funext i
  obtain ⟨b, s, o, rfl⟩ : ∃ (b : Fin 4) (s : Fin 2048) (o : Fin 11008), i = ix3 b s o := ⟨i 0, i 1, i 2, eq_ix3 i⟩
  have el6 : ∀ k, lidx_main_v6 (ix3 b s o) k = ix3 b s k := fun k => funext fun a => Fin.ext (by
    match a with | ⟨0, _⟩ => rfl | ⟨1, _⟩ => rfl | ⟨2, _⟩ => rfl)
  have er6 : ∀ k, ridx_main_v6 (ix3 b s o) k = ix2 o k := fun k => funext fun a => Fin.ext (by
    match a with | ⟨0, _⟩ => rfl | ⟨1, _⟩ => rfl)
  have el8 : ∀ j, lidx_main_v8 (ix3 b s o) j = ix3 b s j := fun j => funext fun a => Fin.ext (by
    match a with | ⟨0, _⟩ => rfl | ⟨1, _⟩ => rfl | ⟨2, _⟩ => rfl)
  have er8 : ∀ j, ridx_main_v8 (ix3 b s o) j = ix2 o j := fun j => funext fun a => Fin.ext (by
    match a with | ⟨0, _⟩ => rfl | ⟨1, _⟩ => rfl)
  have el7 : ∀ (j : Fin 16) k, lidx_main_v7 (ix3 b s j) k = ix3 b s k := fun j k => funext fun a => Fin.ext (by
    match a with | ⟨0, _⟩ => rfl | ⟨1, _⟩ => rfl | ⟨2, _⟩ => rfl)
  have er7 : ∀ (j : Fin 16) k, ridx_main_v7 (ix3 b s j) k = ix2 j k := fun j k => funext fun a => Fin.ext (by
    match a with | ⟨0, _⟩ => rfl | ⟨1, _⟩ => rfl)
  rw [val_main_v11_apply, val_main_v6_apply, val_main_v10_apply, val_main_v9_apply, val_main_cst_0_apply, val_main_v8_apply]
  simp only [el6, er6, el8, er8, weight_apply, val_main_v7_apply, el7, er7]
  rfl

end Cert.ReferenceIdeal.RefValue

end
-- ==== Proof.lean ====
/-
  A quantized linear layer with a rank-16 correction, as a tiled kernel and as plain array code.

  The kernel walks an 8 × 22 × 4 grid: 1024 × 512 tiles of the output, the 4096 features in four depth tiles of 1024.
  Each step dequantizes its tile of the integer weight codes, `(code - 127) · scale`, multiplies it with its tile of `x`
  and adds the product to an accumulator; it also accumulates `x · Aᵀ` over the depth tiles; the last step of a sweep
  writes `base + 2 · (x Aᵀ) · Bᵀ`. The 11008 output channels are padded with 256 zero rows to fill 22 column tiles, and
  the padding columns of the result are cut off again. The reference dequantizes the whole weight and forms the same
  three products with whole-array contractions.

  Over the extended reals a change of float format is the identity, and addition is associative and commutative, so
  the four depth tiles' sums, added in order from zero, are the one sum over all 4096 features: both programs return

    out (b, s, o) = ∑ₖ x (b, s, k) · ((code (o, k) - 127) · scale o) + 2 · ∑ⱼ (∑ₖ x (b, s, k) · A (j, k)) · B (o, j),

  with the same grouping of the products and the same constants 127 and 2 on both sides; no law that needs finite
  values is used, so the precondition is never opened. The ideal pass rewrote nothing, so `preserves` is `True`.

  Modules: Spec (the layer), LibBlockSums (a sum taken block by block), Payloads (one step's arithmetic at an index),
  Pieces (what each kind of step stores), Blocks (the tiles as entries of the arrays), Accum and RunningSums (the
  accumulators along a sweep), WholeArray (the array the region leaves), KernelLayer (the padding, the cut, and the
  kernel program's run), RefSide (the reference is the layer).
-/
import proofs.«111859_j4724464025622_1_alg».proof.Defs
import proofs.«111859_j4724464025622_1_alg».proof.Proof.Gen.Kernel
import proofs.«111859_j4724464025622_1_alg».proof.Proof.Gen.Kernel.Frame
import proofs.«111859_j4724464025622_1_alg».proof.Proof.Gen.KernelIdeal
import proofs.«111859_j4724464025622_1_alg».proof.Proof.Gen.KernelIdeal.Frame
import proofs.«111859_j4724464025622_1_alg».proof.Proof.Gen.ReferenceIdeal
import proofs.«111859_j4724464025622_1_alg».proof.Proof.Gen.ReferenceIdeal.Run
import proofs.«111859_j4724464025622_1_alg».proof.Proof.Gen.ReferenceIdeal.Read
import proofs.«111859_j4724464025622_1_alg».proof.Proof.Gen.Pre_finite_inputs
import proofs.«111859_j4724464025622_1_alg».proof.Proof.KernelLayer
import proofs.«111859_j4724464025622_1_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its idealization. -/
theorem preserves : Cert.preserves_Kernel_KernelIdeal := trivial

/-- Over the extended reals both programs end with the layer's output of their (agreeing) arguments. -/
theorem algebraic : Cert.algebraic_KernelIdeal_ReferenceIdeal := by
  intro m ρ m' ρ' _ hagree
  refine ⟨fun c => QuantLora.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Layer.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
